-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c25_i32_11 : BitVec 32 := 25#32
  let c0_i32_12 : BitVec 32 := 0#32
  let v16 : BitVec 1 := Scalar.cmpi .eq c25_i32_11 c0_i32_12
  let c1_i32 : BitVec 32 := 1#32
  let v17 : BitVec 32 := Scalar.select v16 c1_i32 c25_i32_11
  let v18 : BitVec 32 := Scalar.remsi arg0 v17
  let c0_i32_14 : BitVec 32 := 0#32
  let v20 : BitVec 1 := Scalar.cmpi .slt v18 c0_i32_14
  let c0_i32_15 : BitVec 32 := 0#32
  let v21 : BitVec 1 := Scalar.cmpi .slt v17 c0_i32_15
  let v22 : BitVec 1 := Scalar.xori v20 v21
  let c0_i32_13 : BitVec 32 := 0#32
  let v19 : BitVec 1 := Scalar.cmpi .ne v18 c0_i32_13
  let v23 : BitVec 1 := Scalar.andi v22 v19
  let v24 : BitVec 32 := Scalar.addi v18 v17
  let v25 : BitVec 32 := Scalar.select v23 v24 v18
  let c400_i32 : BitVec 32 := 400#32
  let v26 : BitVec 32 := Scalar.muli v25 c400_i32
  let v27 : Index := Scalar.indexCast v26
  let c0_16 : Index := 0#32
  ![v27.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c25_i32 : BitVec 32 := 25#32
  let v0 : BitVec 1 := Scalar.cmpi .sge arg0 c25_i32
  let c25_i32_0 : BitVec 32 := 25#32
  let v1 : BitVec 32 := Scalar.subi arg0 c25_i32_0
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Common.lean ====
/-
  The two-layer graph convolution kernel runs 50 grid points over 25 row blocks of the adjacency matrix.
  Point 0 also forms the first product x·W1 into the first scratch; points 0..24 (pass one) each form one
  400-row block of relu(adj·(x·W1))·W2 and store it into the second scratch at rows 400·t; points 25..49
  (pass two) each form one 400-row block of adj·(second scratch) into the output window.
  This module decides the three branch conditions and the store offset in closed form over the grid, says where
  the output window is idle or written back, and names the staging and scratch memrefs the body is called with.
-/
import proofs.«113537_g12867722019435_cont_9to1_m_966_12_alg».proof.Proof.Gen.Kernel.Frame
import proofs.«113537_g12867722019435_cont_9to1_m_966_12_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The condition of the first branch (the grid coordinate is zero). -/
abbrev condP (i : grid0.Coords) : Prop :=
  (Scalar.cmpi .ne (Scalar.extui (Scalar.cmpi .eq (BitVec.ofNat 32 (i 0).val) 0#32)) 0#32) = 1#1

/-- The first branch is taken at point 0 only. -/
theorem hcondP : ∀ t : Fin cfg0.N, condP (grid0.coords t) ↔ t.val = 0 :=
  (by decide +kernel : ∀ t : Fin grid0.N, condP (grid0.coords t) ↔ t.val = 0)

/-- The second branch (pass one) is taken at the points below 25. -/
theorem hcond2 : ∀ t : Fin cfg0.N, k0_cond2 (grid0.coords t) = 1#1 ↔ t.val < 25 :=
  (by decide +kernel : ∀ t : Fin grid0.N, k0_cond2 (grid0.coords t) = 1#1 ↔ t.val < 25)

/-- The third branch (pass two) is taken at the points from 25 on. -/
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- Pass one stores its block at rows 400·(t mod 25), column 0. -/
theorem hoff1 : ∀ t : Fin cfg0.N, k0_off1 (grid0.coords t) = ![400 * (t.val % 25), 0] :=
  (by decide +kernel : ∀ t : Fin grid0.N, k0_off1 (grid0.coords t) = ![400 * (t.val % 25), 0])

/-! ## Where the windows are idle, and where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- In pass one the output window is idle: the body stores nothing into it. -/
theorem idleAt4 : ∀ t : Fin cfg0.N, t.val < 25 → cfg0.idle 4 (grid0.coords t) = true := by decide +kernel
/-- In pass one the output block (always block 0 there) is not written back. -/
theorem noFlush4 : ∀ t : Fin cfg0.N, t.val < 25 → (cfg0.win 4).flush t = false := by decide +kernel
/-- In pass two the output window is live. -/
theorem liveAt4 : ∀ t : Fin cfg0.N, 25 ≤ t.val → cfg0.idle 4 (grid0.coords t) = false := by decide +kernel
/-- In pass two every point writes its block back. -/
theorem flush4 : ∀ t : Fin cfg0.N, 25 ≤ t.val → (cfg0.win 4).flush t = true := by decide +kernel
/-- In pass two point t holds output block t − 25. -/
theorem index4 : ∀ t : Fin cfg0.N, 25 ≤ t.val → win0_4.index t = ![t.val - 25, 0] := by decide +kernel
/-- The adjacency window's block index at point t is t mod 25. -/
theorem index3 : ∀ t : Fin cfg0.N, win0_3.index t = ![t.val % 25, 0] := by decide +kernel
theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The two scratch operands: whole scoped buffers of the kernel's own. -/
abbrev scA : Memref sig .tc .vmem S10000x128 .f32 := Memref.whole cc0_scratch0
abbrev scB : Memref sig .tc .vmem S10000x128 .f32 := Memref.whole cc0_scratch1

/-- The class invariant with the two scratch buffers as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-! ## Reading back whole-buffer loads and stores -/

theorem hz2 : (![0, 0] : Fin 2 → Nat) = fun _ => 0 := funext fun a => by fin_cases a <;> rfl

/-- A load of the whole of a whole memref whose contents read `x` reads `x`. -/
theorem readAt_unread {d : Fin 2 → ℕ} (mr : Memref sig .tc .vmem ⟨2, d⟩ .f32) (h : mr.IsWhole)
    (inb : ∀ a, (![0, 0] : Fin 2 → ℕ) a + (⟨2, d⟩ : Shape).size a ≤ (⟨2, d⟩ : Shape).size a) (x : Vec F ⟨2, d⟩ .f32) :
    View.readAt (Elt F) mr.view (Rect.unit (s := ⟨2, d⟩) ![0, 0] (⟨2, d⟩ : Shape).size inb).toLoadRect (h.unread x) = x :=
  (View.readAt_eq_ld mr.view (h.unread x) (Rect.unit (s := ⟨2, d⟩) ![0, 0] (⟨2, d⟩ : Shape).size inb)).trans
    (by rw [h.read_unread]; exact View.ld_unit_zero hz2 inb x)

/-- One store through the whole shape leaves its payload, whatever the buffer held. -/
theorem read_writes_whole {d : Fin 2 → ℕ} (v : View sig .tc .vmem ⟨2, d⟩ .f32) (f : v.ty.Contents (Elt F))
    (inb : ∀ a, (![0, 0] : Fin 2 → ℕ) a + (⟨2, d⟩ : Shape).size a ≤ (⟨2, d⟩ : Shape).size a) (w : Vec F ⟨2, d⟩ .f32) :
    v.read (Elt F) (v.writes (Elt F) f [⟨Rect.unit (s := ⟨2, d⟩) ![0, 0] (⟨2, d⟩ : Shape).size inb, w⟩]) = w :=
  (View.read_writes_eq_canon v f _ (fun y => ⟨_, List.mem_singleton_self _, View.mem_set_unit_zero hz2 inb y⟩)).trans
    (View.canon_unit_zero hz2 inb w)

end Cert.Kernel.Body

end
-- ==== Proof.K.Data.lean ====
/-
  What the two scratch buffers and the output window hold, point by point.
  s1 is the product x·W1 formed at the first point. Block t of pass one is relu(adj_t · s1) · W2; S2 is the
  10000-row array whose rows 400·k .. 400·k+399 are block k. Before point n the second scratch agrees with S2 on
  its first 400·n rows (all of them from n = 25 on) and holds anything below; the first scratch holds s1 from
  point 1 on. In pass two the output window at point t ends at adj_t · S2.
-/
import proofs.«113537_g12867722019435_cont_9to1_m_966_12_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩

/-- The first product, x·W1, as the first point forms it from its two input blocks. -/
def S1 (c : Dev nD) : Vec F S10000x128 .f32 := k0_pay1 (iblk m c 0 t0) (iblk m c 1 t0)

/-- Block t of pass one: relu(adj_t · s1) · W2, from the point's adjacency block and W2 block. -/
def B2 (c : Dev nD) (t : Fin cfg0.N) : Vec F S400x128 .f32 := k0_pay2 (iblk m c 3 t) (S1 m c) (iblk m c 2 t)

theorem S2pt_lt (y : S10000x128.Idx) : (y 0).val / 400 < cfg0.N := by
  have h : (y 0).val < 10000 := (y 0).isLt
  show (y 0).val / 400 < 50
  omega

theorem S2loc (y : S10000x128.Idx) :
    ∀ a : Fin 2, (![400 * ((y 0).val / 400), 0] : Fin 2 → ℕ) a ≤ (y a).val ∧ (y a).val < (![400 * ((y 0).val / 400), 0] : Fin 2 → ℕ) a + S400x128.size a :=
  Rect.unit_rows_mem (d := ![10000, 128]) (size := S400x128.size) (o := 400 * ((y 0).val / 400)) (W := 400) y rfl rfl ⟨by omega, by omega⟩

/-- The second scratch when pass one is over: row r belongs to block r / 400, at row r − 400·(r / 400) of it. -/
def S2 (c : Dev nD) : Vec F S10000x128 .f32 := fun y =>
  B2 m c ⟨(y 0).val / 400, S2pt_lt y⟩
    (Rect.unitLocal (s := S10000x128) (off := ![400 * ((y 0).val / 400), 0]) (size := S400x128.size) y (S2loc y))

/-- Row 400·t + r of S2 is row r of block t. -/
theorem S2_of_row (c : Dev nD) (t : Fin cfg0.N) (y : S10000x128.Idx) (x : S400x128.Idx)
    (h0 : (y 0).val = 400 * t.val + (x 0).val) (h1 : (y 1).val = (x 1).val) : S2 m c y = B2 m c t x := by
  unfold S2
  have hx : (x 0).val < 400 := (x 0).isLt
  have e1 : (⟨(y 0).val / 400, S2pt_lt y⟩ : Fin cfg0.N) = t := Fin.ext (by show (y 0).val / 400 = t.val; omega)
  have e2 : Rect.unitLocal (s := S10000x128) (off := ![400 * ((y 0).val / 400), 0]) (size := S400x128.size) y (S2loc y) = x :=
    funext fun a => Fin.ext (by
      rw [Rect.unitLocal_val]
      match a with
      | ⟨0, _⟩ => show (y 0).val - 400 * ((y 0).val / 400) = (x 0).val; omega
      | ⟨1, _⟩ => show (y 1).val - 0 = (x 1).val; omega)
  rw [e1, e2]

/-- The second scratch before point n: its first 400·n rows are S2's. -/
def Inv (c : Dev nD) (n : ℕ) (f : Vec F S10000x128 .f32) : Prop :=
  ∀ y : S10000x128.Idx, (y 0).val < 400 * n → f y = S2 m c y

/-- From point 25 on the second scratch is S2. -/
theorem Inv_full (c : Dev nD) (n : ℕ) (hn : 25 ≤ n) (f : Vec F S10000x128 .f32) (h : Inv m c n f) : f = S2 m c :=
  funext fun y => h y (by have hy : (y 0).val < 10000 := (y 0).isLt; omega)

/-- A point of pass one extends the agreement by its block: the store covers rows 400·t .. 400·t+399 with block t
    and leaves the other rows as they were. -/
theorem Inv_step (c : Dev nD) (t : Fin cfg0.N) (ht : t.val < 25) (hc2 : k0_cond2 (grid0.coords t) = 1#1)
    (v : View sig .tc .vmem S10000x128 .f32) (f0 : v.ty.Contents (Elt F)) (hInv : Inv m c t.val (v.read (Elt F) f0)) :
    Inv m c (t.val + 1) (v.read (Elt F) (v.writes (Elt F) f0
      [⟨Rect.unit (s := S10000x128) (k0_off1 (grid0.coords t)) S400x128.size (k0_off1_inb (grid0.coords t) hc2), B2 m c t⟩])) := by
  intro y hy
  have ho : k0_off1 (grid0.coords t) = ![400 * t.val, 0] := by rw [hoff1 t, Nat.mod_eq_of_lt ht]
  rw [View.read_writes_cons_rows (d := ![10000, 128]) v f0 (k0_off1_inb (grid0.coords t) hc2) (B2 m c t) [] y ho (W := 400) rfl rfl]
  by_cases h : 400 * t.val ≤ (y 0).val ∧ (y 0).val < 400 * t.val + 400
  · rw [dif_pos h]
    refine (S2_of_row m c t y _ ?_ ?_).symm
    · rw [Rect.unitLocal_val]; show (y 0).val = 400 * t.val + ((y 0).val - 400 * t.val); omega
    · rw [Rect.unitLocal_val]; show (y 1).val = (y 1).val - 0; omega
  · rw [dif_neg h, View.writes_nil]
    exact hInv y (by omega)

/-- The region invariant before point n: the two scratch buffers at some contents, the first s1 unless n = 0, the
    second agreeing with S2 on its first 400·n rows; and the generator register at some state. -/
def Phi (c : Dev nD) (n : ℕ) : sProp 𝕄 :=
  iprop(∃ (g : Vec F S10000x128 .f32) (f : Vec F S10000x128 .f32), ⌜(n ≠ 0 → g = S1 m c) ∧ Inv m c n f⌝
    ∗ owns (c : Thread nD τ) scA fullShare g ∗ owns (c : Thread nD τ) scB fullShare f ∗ (∃ r, prngReg c r))

/-- The proof data of the one pipeline on core c: the arrays as the region finds them; after the body each input
    window at its block and the output window at adj_t · S2 (what pass two leaves there; pass one leaves the
    window as found and never writes it back); the invariant Phi; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (iblk m c 3 t) (S2 m c)
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (iblk m c 3 t) (S2 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Body

end
-- ==== Proof.K.RunA.lean ====
/-
  The body at the first grid point: the first branch forms the product x·W1 and stores it over the whole first
  scratch; the second branch reads it back, forms the block relu(adj_0 · (x·W1)) · W2 and stores it into the
  rows of the second scratch the store's rectangle names; the third branch is skipped.
-/
import proofs.«113537_g12867722019435_cont_9to1_m_966_12_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: the first scratch ends at the product, the second with one block written over its old contents. -/
theorem runA (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (arg7 : Memref sig .tc .vmem S10000x128 .f32) (harg7 : arg7.IsWhole)
    (hc1 : condP i) (hc2 : k0_cond2 i = 1#1) (hc3 : ¬k0_cond3 i = 1#1)
    (x0 : Vec F S10000x128 .f32) (x1 x2 : Vec F S128x128 .f32) (x3 : Vec F S400x10000 .f32) (x4 : Vec F S400x128 .f32) (xa xb : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare xb
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1)
            ∗ owns (c : Thread nD τ) arg7 fullShare (arg7.view.read (Elt F) (arg7.view.writes (Elt F) (harg7.unread xb)
                [⟨Rect.unit (s := S10000x128) (k0_off1 i) S400x128.size (k0_off1_inb i hc2), k0_pay2 x3 (k0_pay1 x0 x1) x2⟩]))) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfa
  obtain rfl := harg7.eq_unread hfb
  sl_exec (disch := first | exact hc1 | exact hc2 | exact hc3)
  sl_step
  delta runA.sl.v10 runA.sl.HA_1
  rw [View.readCov_cons_toLoadRect]
  rw [readAt_unread arg1 harg1 inb_S10000x128_S10000x128_0_0 x0, readAt_unread arg2 harg2 inb_S128x128_S128x128_0_0 x1]
  rw [readAt_unread arg4 harg4 inb_S400x10000_S400x10000_0_0 x3, readAt_unread arg3 harg3 inb_S128x128_S128x128_0_0 x2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HA]
  · iexists _; isplitr
    swap; · iexact HA
    ipureintro; exact read_writes_whole (F := F) _ _ _ _
  iexists _; isplitr; · ipureintro; rfl
  iexact HB

end Cert.Kernel.Body

end
-- ==== Proof.K.RunB.lean ====
/-
  The body at a point of pass one other than the first: the first branch is skipped, the second taken, the third
  skipped. Only the second scratch changes: the rows the store's rectangle names take the block
  relu(adj_t · s1) · W2, the others keep what they held.
-/
import proofs.«113537_g12867722019435_cont_9to1_m_966_12_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Pass one, not the first point: the second scratch is read back with one block written over its old contents. -/
theorem runB (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (arg7 : Memref sig .tc .vmem S10000x128 .f32) (harg7 : arg7.IsWhole)
    (hc1 : ¬condP i) (hc2 : k0_cond2 i = 1#1) (hc3 : ¬k0_cond3 i = 1#1)
    (x0 : Vec F S10000x128 .f32) (x1 x2 : Vec F S128x128 .f32) (x3 : Vec F S400x10000 .f32) (x4 : Vec F S400x128 .f32) (xa xb : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare xb
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare (arg7.view.read (Elt F) (arg7.view.writes (Elt F) (harg7.unread xb)
                [⟨Rect.unit (s := S10000x128) (k0_off1 i) S400x128.size (k0_off1_inb i hc2), k0_pay2 x3 xa x2⟩]))) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfa
  obtain rfl := harg7.eq_unread hfb
  sl_exec (disch := first | exact hc1 | exact hc2 | exact hc3)
  sl_step
  rw [readAt_unread arg4 harg4 inb_S400x10000_S400x10000_0_0 x3, readAt_unread arg6 harg6 inb_S10000x128_S10000x128_0_0 xa, readAt_unread arg3 harg3 inb_S128x128_S128x128_0_0 x2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HA]
  · iexists _; isplitr; · ipureintro; exact harg6.read_unread _
    iexact HA
  iexists _; isplitr; · ipureintro; rfl
  iexact HB

end Cert.Kernel.Body

end
-- ==== Proof.K.RunC.lean ====
/-
  The body at a point of pass two: only the third branch is taken. It reads the adjacency block and the whole
  second scratch and stores their product over the whole output window.
-/
import proofs.«113537_g12867722019435_cont_9to1_m_966_12_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Pass two: the output window ends at the product of the adjacency block and the second scratch. -/
theorem runC (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (arg7 : Memref sig .tc .vmem S10000x128 .f32) (harg7 : arg7.IsWhole)
    (hc1 : ¬condP i) (hc2 : ¬k0_cond2 i = 1#1) (hc3 : k0_cond3 i = 1#1)
    (x0 : Vec F S10000x128 .f32) (x1 x2 : Vec F S128x128 .f32) (x3 : Vec F S400x10000 .f32) (x4 : Vec F S400x128 .f32) (xa xb : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare xb
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay3 x3 xb)
            ∗ owns (c : Thread nD τ) arg6 fullShare xa
            ∗ owns (c : Thread nD τ) arg7 fullShare xb) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfa
  obtain rfl := harg7.eq_unread hfb
  sl_exec (disch := first | exact hc1 | exact hc2 | exact hc3)
  sl_step
  rw [readAt_unread arg4 harg4 inb_S400x10000_S400x10000_0_0 x3, readAt_unread arg7 harg7 inb_S10000x128_S10000x128_0_0 xb]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; exact read_writes_whole (F := F) _ _ _ _
  isplitl [HA]
  · iexists _; isplitr; · ipureintro; exact harg6.read_unread _
    iexact HA
  iexists _; isplitr; · ipureintro; exact harg7.read_unread _
  iexact HB

end Cert.Kernel.Body

end
-- ==== Proof.K.Body.lean ====
/-
  The body obligation at every grid point, the run of the whole program, and its frame.
  At each point the closed forms of the three branch conditions say which of the three runs applies; the
  invariant hands the run the two scratch buffers and takes them back one block further.
-/
import proofs.«113537_g12867722019435_cont_9to1_m_966_12_alg».proof.Proof.K.Data
import proofs.«113537_g12867722019435_cont_9to1_m_966_12_alg».proof.Proof.K.RunA
import proofs.«113537_g12867722019435_cont_9to1_m_966_12_alg».proof.Proof.K.RunB
import proofs.«113537_g12867722019435_cont_9to1_m_966_12_alg».proof.Proof.K.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. Point 0: the first run, from scratch buffers at anything. Points 1..24: the second
    run, the first scratch at s1. Points 25..49: the third run, the second scratch at S2, the output window
    live. In pass one the output window is idle and not written back: it is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Phi m c (t.val + 1) from rfl, Phi_castSucc]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  by_cases h25 : t.val < 25
  · rw [Dat.leavesExact_idle (dats m 0 c) 4 t (idleAt4 t h25) (noFlush4 t h25)]
    have hc2 : k0_cond2 (grid0.coords t) = 1#1 := (hcond2 t).mpr h25
    have hc3 : ¬k0_cond3 (grid0.coords t) = 1#1 := fun h => by have := (hcond3 t).mp h; omega
    by_cases hz : t.val = 0
    · have ht : t = t0 := Fin.ext hz
      subst ht
      have hc1 : condP (grid0.coords t0) := (hcondP t0).mpr rfl
      unfold Phi
      iintro ⟨⟨%g, %f, %hgf, HA, HB, Hg⟩, Ho, ⟨%d0, H0⟩, ⟨%d1, H1⟩, ⟨%d2, H2⟩, ⟨%d3, H3⟩, ⟨%d4, H4⟩⟩
      iapply (runA c (grid0.coords t0) (ms0 t0) (hs0 t0) (ms1 t0) (hs1 t0) (ms2 t0) (hs2 t0) (ms3 t0) (hs3 t0) (ms4 t0) (hs4 t0) scA (Memref.isWhole_whole _) scB (Memref.isWhole_whole _) hc1 hc2 hc3
        (iblk m c 0 t0) (iblk m c 1 t0) (iblk m c 2 t0) (iblk m c 3 t0) ((dats m 0 c).before 4 t0 d4) g f Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, HA, HB⟩
      isplitl [HA HB Hg]
      · iexists _; iexists _; isplitr
        swap
        · isplitl [HA]; · iexact HA
          isplitl [HB]; · iexact HB
          iexact Hg
        ipureintro
        exact ⟨fun _ => rfl, Inv_step m c t0 h25 hc2 _ _ (by rw [Memref.IsWhole.read_unread]; exact hgf.2)⟩
      isplitl [Ho]; · iexact Ho
      isplitl [H0]; · iexact H0
      isplitl [H1]; · iexact H1
      isplitl [H2]; · iexact H2
      isplitl [H3]; · iexact H3
      iexists _; iexact H4
    · have hc1 : ¬condP (grid0.coords t) := fun h => hz ((hcondP t).mp h)
      unfold Phi
      iintro ⟨⟨%g, %f, %hgf, HA, HB, Hg⟩, Ho, ⟨%d0, H0⟩, ⟨%d1, H1⟩, ⟨%d2, H2⟩, ⟨%d3, H3⟩, ⟨%d4, H4⟩⟩
      have hg : g = S1 m c := hgf.1 hz
      subst hg
      iapply (runB c (grid0.coords t) (ms0 t) (hs0 t) (ms1 t) (hs1 t) (ms2 t) (hs2 t) (ms3 t) (hs3 t) (ms4 t) (hs4 t) scA (Memref.isWhole_whole _) scB (Memref.isWhole_whole _) hc1 hc2 hc3
        (iblk m c 0 t) (iblk m c 1 t) (iblk m c 2 t) (iblk m c 3 t) ((dats m 0 c).before 4 t d4) (S1 m c) f Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, HA, HB⟩
      isplitl [HA HB Hg]
      · iexists _; iexists _; isplitr
        swap
        · isplitl [HA]; · iexact HA
          isplitl [HB]; · iexact HB
          iexact Hg
        ipureintro
        exact ⟨fun _ => rfl, Inv_step m c t h25 hc2 _ _ (by rw [Memref.IsWhole.read_unread]; exact hgf.2)⟩
      isplitl [Ho]; · iexact Ho
      isplitl [H0]; · iexact H0
      isplitl [H1]; · iexact H1
      isplitl [H2]; · iexact H2
      isplitl [H3]; · iexact H3
      iexists _; iexact H4
  · have h25' : 25 ≤ t.val := Nat.le_of_not_lt h25
    rw [show (dats m 0 c).leavesExact 4 t = owns (c : Thread nD τ) (ms4 t) fullShare ((dats m 0 c).after 4 t) from by
      unfold Dat.leavesExact; rw [liveAt4 t h25'], after0_4]
    have hz : t.val ≠ 0 := by omega
    have hc1 : ¬condP (grid0.coords t) := fun h => hz ((hcondP t).mp h)
    have hc2 : ¬k0_cond2 (grid0.coords t) = 1#1 := fun h => h25 ((hcond2 t).mp h)
    have hc3 : k0_cond3 (grid0.coords t) = 1#1 := (hcond3 t).mpr h25'
    unfold Phi
    iintro ⟨⟨%g, %f, %hgf, HA, HB, Hg⟩, Ho, ⟨%d0, H0⟩, ⟨%d1, H1⟩, ⟨%d2, H2⟩, ⟨%d3, H3⟩, ⟨%d4, H4⟩⟩
    have hg : g = S1 m c := hgf.1 hz
    have hf : f = S2 m c := Inv_full m c t.val h25' f hgf.2
    subst hg; subst hf
    iapply (runC c (grid0.coords t) (ms0 t) (hs0 t) (ms1 t) (hs1 t) (ms2 t) (hs2 t) (ms3 t) (hs3 t) (ms4 t) (hs4 t) scA (Memref.isWhole_whole _) scB (Memref.isWhole_whole _) hc1 hc2 hc3
      (iblk m c 0 t) (iblk m c 1 t) (iblk m c 2 t) (iblk m c 3 t) ((dats m 0 c).before 4 t d4) (S1 m c) (S2 m c) Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    iintro ⟨H0, H1, H2, H3, H4, HA, HB⟩
    isplitl [HA HB Hg]
    · iexists _; iexists _; isplitr
      swap
      · isplitl [HA]; · iexact HA
        isplitl [HB]; · iexact HB
        iexact Hg
      ipureintro
      exact ⟨fun _ => rfl, fun y _ => rfl⟩
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (both scratch buffers at anything) is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%g, HA⟩, ⟨%f, HB⟩⟩, Hg⟩
  iexists g; iexists f
  isplitr
  · ipureintro; exact ⟨fun h => absurd rfl h, fun y hy => absurd hy (by omega)⟩
  isplitl [HA]; · iexact HA
  isplitl [HB]; · iexact HB
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%g, %f, %h, HA, HB, Hg⟩
  isplitl [HA HB]
  · isplitl [HA]
    · iexists _; iexact HA
    iexists _; iexact HB
  iexact Hg

set_option backward.isDefEq.respectTransparency.types false in
/-- Every weakly fair execution of the program terminates without a fault, every array of the pipeline ending at
    what the write-backs of the proof data leave in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Common.lean ====
/-
  The two-layer graph convolution kernel runs 50 grid points over 25 row blocks of the adjacency matrix.
  Point 0 also forms the first product x·W1 into the first scratch; points 0..24 (pass one) each form one
  400-row block of relu(adj·(x·W1))·W2 and store it into the second scratch at rows 400·t; points 25..49
  (pass two) each form one 400-row block of adj·(second scratch) into the output window.
  This module decides the three branch conditions and the store offset in closed form over the grid, says where
  the output window is idle or written back, and names the staging and scratch memrefs the body is called with.
-/
import proofs.«113537_g12867722019435_cont_9to1_m_966_12_alg».proof.Proof.Gen.KernelIdeal.Frame
import proofs.«113537_g12867722019435_cont_9to1_m_966_12_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The condition of the first branch (the grid coordinate is zero). -/
abbrev condP (i : grid0.Coords) : Prop :=
  (Scalar.cmpi .ne (Scalar.extui (Scalar.cmpi .eq (BitVec.ofNat 32 (i 0).val) 0#32)) 0#32) = 1#1

/-- The first branch is taken at point 0 only. -/
theorem hcondP : ∀ t : Fin cfg0.N, condP (grid0.coords t) ↔ t.val = 0 :=
  (by decide +kernel : ∀ t : Fin grid0.N, condP (grid0.coords t) ↔ t.val = 0)

/-- The second branch (pass one) is taken at the points below 25. -/
theorem hcond2 : ∀ t : Fin cfg0.N, k0_cond2 (grid0.coords t) = 1#1 ↔ t.val < 25 :=
  (by decide +kernel : ∀ t : Fin grid0.N, k0_cond2 (grid0.coords t) = 1#1 ↔ t.val < 25)

/-- The third branch (pass two) is taken at the points from 25 on. -/
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- Pass one stores its block at rows 400·(t mod 25), column 0. -/
theorem hoff1 : ∀ t : Fin cfg0.N, k0_off1 (grid0.coords t) = ![400 * (t.val % 25), 0] :=
  (by decide +kernel : ∀ t : Fin grid0.N, k0_off1 (grid0.coords t) = ![400 * (t.val % 25), 0])

/-! ## Where the windows are idle, and where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- In pass one the output window is idle: the body stores nothing into it. -/
theorem idleAt4 : ∀ t : Fin cfg0.N, t.val < 25 → cfg0.idle 4 (grid0.coords t) = true := by decide +kernel
/-- In pass one the output block (always block 0 there) is not written back. -/
theorem noFlush4 : ∀ t : Fin cfg0.N, t.val < 25 → (cfg0.win 4).flush t = false := by decide +kernel
/-- In pass two the output window is live. -/
theorem liveAt4 : ∀ t : Fin cfg0.N, 25 ≤ t.val → cfg0.idle 4 (grid0.coords t) = false := by decide +kernel
/-- In pass two every point writes its block back. -/
theorem flush4 : ∀ t : Fin cfg0.N, 25 ≤ t.val → (cfg0.win 4).flush t = true := by decide +kernel
/-- In pass two point t holds output block t − 25. -/
theorem index4 : ∀ t : Fin cfg0.N, 25 ≤ t.val → win0_4.index t = ![t.val - 25, 0] := by decide +kernel
/-- The adjacency window's block index at point t is t mod 25. -/
theorem index3 : ∀ t : Fin cfg0.N, win0_3.index t = ![t.val % 25, 0] := by decide +kernel
theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The two scratch operands: whole scoped buffers of the kernel's own. -/
abbrev scA : Memref sig .tc .vmem S10000x128 .f32 := Memref.whole cc0_scratch0
abbrev scB : Memref sig .tc .vmem S10000x128 .f32 := Memref.whole cc0_scratch1

/-- The class invariant with the two scratch buffers as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-! ## Reading back whole-buffer loads and stores -/

theorem hz2 : (![0, 0] : Fin 2 → Nat) = fun _ => 0 := funext fun a => by fin_cases a <;> rfl

/-- A load of the whole of a whole memref whose contents read `x` reads `x`. -/
theorem readAt_unread {d : Fin 2 → ℕ} (mr : Memref sig .tc .vmem ⟨2, d⟩ .f32) (h : mr.IsWhole)
    (inb : ∀ a, (![0, 0] : Fin 2 → ℕ) a + (⟨2, d⟩ : Shape).size a ≤ (⟨2, d⟩ : Shape).size a) (x : Vec F ⟨2, d⟩ .f32) :
    View.readAt (Elt F) mr.view (Rect.unit (s := ⟨2, d⟩) ![0, 0] (⟨2, d⟩ : Shape).size inb).toLoadRect (h.unread x) = x :=
  (View.readAt_eq_ld mr.view (h.unread x) (Rect.unit (s := ⟨2, d⟩) ![0, 0] (⟨2, d⟩ : Shape).size inb)).trans
    (by rw [h.read_unread]; exact View.ld_unit_zero hz2 inb x)

/-- One store through the whole shape leaves its payload, whatever the buffer held. -/
theorem read_writes_whole {d : Fin 2 → ℕ} (v : View sig .tc .vmem ⟨2, d⟩ .f32) (f : v.ty.Contents (Elt F))
    (inb : ∀ a, (![0, 0] : Fin 2 → ℕ) a + (⟨2, d⟩ : Shape).size a ≤ (⟨2, d⟩ : Shape).size a) (w : Vec F ⟨2, d⟩ .f32) :
    v.read (Elt F) (v.writes (Elt F) f [⟨Rect.unit (s := ⟨2, d⟩) ![0, 0] (⟨2, d⟩ : Shape).size inb, w⟩]) = w :=
  (View.read_writes_eq_canon v f _ (fun y => ⟨_, List.mem_singleton_self _, View.mem_set_unit_zero hz2 inb y⟩)).trans
    (View.canon_unit_zero hz2 inb w)

end Cert.KernelIdeal.Body

end
-- ==== Proof.KI.Data.lean ====
/-
  What the two scratch buffers and the output window hold, point by point.
  s1 is the product x·W1 formed at the first point. Block t of pass one is relu(adj_t · s1) · W2; S2 is the
  10000-row array whose rows 400·k .. 400·k+399 are block k. Before point n the second scratch agrees with S2 on
  its first 400·n rows (all of them from n = 25 on) and holds anything below; the first scratch holds s1 from
  point 1 on. In pass two the output window at point t ends at adj_t · S2.
-/
import proofs.«113537_g12867722019435_cont_9to1_m_966_12_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩

/-- The first product, x·W1, as the first point forms it from its two input blocks. -/
def S1 (c : Dev nD) : Vec F S10000x128 .f32 := k0_pay1 (iblk m c 0 t0) (iblk m c 1 t0)

/-- Block t of pass one: relu(adj_t · s1) · W2, from the point's adjacency block and W2 block. -/
def B2 (c : Dev nD) (t : Fin cfg0.N) : Vec F S400x128 .f32 := k0_pay2 (iblk m c 3 t) (S1 m c) (iblk m c 2 t)

theorem S2pt_lt (y : S10000x128.Idx) : (y 0).val / 400 < cfg0.N := by
  have h : (y 0).val < 10000 := (y 0).isLt
  show (y 0).val / 400 < 50
  omega

theorem S2loc (y : S10000x128.Idx) :
    ∀ a : Fin 2, (![400 * ((y 0).val / 400), 0] : Fin 2 → ℕ) a ≤ (y a).val ∧ (y a).val < (![400 * ((y 0).val / 400), 0] : Fin 2 → ℕ) a + S400x128.size a :=
  Rect.unit_rows_mem (d := ![10000, 128]) (size := S400x128.size) (o := 400 * ((y 0).val / 400)) (W := 400) y rfl rfl ⟨by omega, by omega⟩

/-- The second scratch when pass one is over: row r belongs to block r / 400, at row r − 400·(r / 400) of it. -/
def S2 (c : Dev nD) : Vec F S10000x128 .f32 := fun y =>
  B2 m c ⟨(y 0).val / 400, S2pt_lt y⟩
    (Rect.unitLocal (s := S10000x128) (off := ![400 * ((y 0).val / 400), 0]) (size := S400x128.size) y (S2loc y))

/-- Row 400·t + r of S2 is row r of block t. -/
theorem S2_of_row (c : Dev nD) (t : Fin cfg0.N) (y : S10000x128.Idx) (x : S400x128.Idx)
    (h0 : (y 0).val = 400 * t.val + (x 0).val) (h1 : (y 1).val = (x 1).val) : S2 m c y = B2 m c t x := by
  unfold S2
  have hx : (x 0).val < 400 := (x 0).isLt
  have e1 : (⟨(y 0).val / 400, S2pt_lt y⟩ : Fin cfg0.N) = t := Fin.ext (by show (y 0).val / 400 = t.val; omega)
  have e2 : Rect.unitLocal (s := S10000x128) (off := ![400 * ((y 0).val / 400), 0]) (size := S400x128.size) y (S2loc y) = x :=
    funext fun a => Fin.ext (by
      rw [Rect.unitLocal_val]
      match a with
      | ⟨0, _⟩ => show (y 0).val - 400 * ((y 0).val / 400) = (x 0).val; omega
      | ⟨1, _⟩ => show (y 1).val - 0 = (x 1).val; omega)
  rw [e1, e2]

/-- The second scratch before point n: its first 400·n rows are S2's. -/
def Inv (c : Dev nD) (n : ℕ) (f : Vec F S10000x128 .f32) : Prop :=
  ∀ y : S10000x128.Idx, (y 0).val < 400 * n → f y = S2 m c y

/-- From point 25 on the second scratch is S2. -/
theorem Inv_full (c : Dev nD) (n : ℕ) (hn : 25 ≤ n) (f : Vec F S10000x128 .f32) (h : Inv m c n f) : f = S2 m c :=
  funext fun y => h y (by have hy : (y 0).val < 10000 := (y 0).isLt; omega)

/-- A point of pass one extends the agreement by its block: the store covers rows 400·t .. 400·t+399 with block t
    and leaves the other rows as they were. -/
theorem Inv_step (c : Dev nD) (t : Fin cfg0.N) (ht : t.val < 25) (hc2 : k0_cond2 (grid0.coords t) = 1#1)
    (v : View sig .tc .vmem S10000x128 .f32) (f0 : v.ty.Contents (Elt F)) (hInv : Inv m c t.val (v.read (Elt F) f0)) :
    Inv m c (t.val + 1) (v.read (Elt F) (v.writes (Elt F) f0
      [⟨Rect.unit (s := S10000x128) (k0_off1 (grid0.coords t)) S400x128.size (k0_off1_inb (grid0.coords t) hc2), B2 m c t⟩])) := by
  intro y hy
  have ho : k0_off1 (grid0.coords t) = ![400 * t.val, 0] := by rw [hoff1 t, Nat.mod_eq_of_lt ht]
  rw [View.read_writes_cons_rows (d := ![10000, 128]) v f0 (k0_off1_inb (grid0.coords t) hc2) (B2 m c t) [] y ho (W := 400) rfl rfl]
  by_cases h : 400 * t.val ≤ (y 0).val ∧ (y 0).val < 400 * t.val + 400
  · rw [dif_pos h]
    refine (S2_of_row m c t y _ ?_ ?_).symm
    · rw [Rect.unitLocal_val]; show (y 0).val = 400 * t.val + ((y 0).val - 400 * t.val); omega
    · rw [Rect.unitLocal_val]; show (y 1).val = (y 1).val - 0; omega
  · rw [dif_neg h, View.writes_nil]
    exact hInv y (by omega)

/-- The region invariant before point n: the two scratch buffers at some contents, the first s1 unless n = 0, the
    second agreeing with S2 on its first 400·n rows; and the generator register at some state. -/
def Phi (c : Dev nD) (n : ℕ) : sProp 𝕄 :=
  iprop(∃ (g : Vec F S10000x128 .f32) (f : Vec F S10000x128 .f32), ⌜(n ≠ 0 → g = S1 m c) ∧ Inv m c n f⌝
    ∗ owns (c : Thread nD τ) scA fullShare g ∗ owns (c : Thread nD τ) scB fullShare f ∗ (∃ r, prngReg c r))

/-- The proof data of the one pipeline on core c: the arrays as the region finds them; after the body each input
    window at its block and the output window at adj_t · S2 (what pass two leaves there; pass one leaves the
    window as found and never writes it back); the invariant Phi; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (iblk m c 3 t) (S2 m c)
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (iblk m c 3 t) (S2 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Body

end
-- ==== Proof.KI.RunA.lean ====
/-
  The body at the first grid point: the first branch forms the product x·W1 and stores it over the whole first
  scratch; the second branch reads it back, forms the block relu(adj_0 · (x·W1)) · W2 and stores it into the
  rows of the second scratch the store's rectangle names; the third branch is skipped.
-/
import proofs.«113537_g12867722019435_cont_9to1_m_966_12_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: the first scratch ends at the product, the second with one block written over its old contents. -/
theorem runA (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (arg7 : Memref sig .tc .vmem S10000x128 .f32) (harg7 : arg7.IsWhole)
    (hc1 : condP i) (hc2 : k0_cond2 i = 1#1) (hc3 : ¬k0_cond3 i = 1#1)
    (x0 : Vec F S10000x128 .f32) (x1 x2 : Vec F S128x128 .f32) (x3 : Vec F S400x10000 .f32) (x4 : Vec F S400x128 .f32) (xa xb : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare xb
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1)
            ∗ owns (c : Thread nD τ) arg7 fullShare (arg7.view.read (Elt F) (arg7.view.writes (Elt F) (harg7.unread xb)
                [⟨Rect.unit (s := S10000x128) (k0_off1 i) S400x128.size (k0_off1_inb i hc2), k0_pay2 x3 (k0_pay1 x0 x1) x2⟩]))) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfa
  obtain rfl := harg7.eq_unread hfb
  sl_exec (disch := first | exact hc1 | exact hc2 | exact hc3)
  sl_step
  delta runA.sl.v10 runA.sl.HA_1
  rw [View.readCov_cons_toLoadRect]
  rw [readAt_unread arg1 harg1 inb_S10000x128_S10000x128_0_0 x0, readAt_unread arg2 harg2 inb_S128x128_S128x128_0_0 x1]
  rw [readAt_unread arg4 harg4 inb_S400x10000_S400x10000_0_0 x3, readAt_unread arg3 harg3 inb_S128x128_S128x128_0_0 x2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HA]
  · iexists _; isplitr
    swap; · iexact HA
    ipureintro; exact read_writes_whole (F := F) _ _ _ _
  iexists _; isplitr; · ipureintro; rfl
  iexact HB

end Cert.KernelIdeal.Body

end
-- ==== Proof.KI.RunB.lean ====
/-
  The body at a point of pass one other than the first: the first branch is skipped, the second taken, the third
  skipped. Only the second scratch changes: the rows the store's rectangle names take the block
  relu(adj_t · s1) · W2, the others keep what they held.
-/
import proofs.«113537_g12867722019435_cont_9to1_m_966_12_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Pass one, not the first point: the second scratch is read back with one block written over its old contents. -/
theorem runB (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (arg7 : Memref sig .tc .vmem S10000x128 .f32) (harg7 : arg7.IsWhole)
    (hc1 : ¬condP i) (hc2 : k0_cond2 i = 1#1) (hc3 : ¬k0_cond3 i = 1#1)
    (x0 : Vec F S10000x128 .f32) (x1 x2 : Vec F S128x128 .f32) (x3 : Vec F S400x10000 .f32) (x4 : Vec F S400x128 .f32) (xa xb : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare xb
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare (arg7.view.read (Elt F) (arg7.view.writes (Elt F) (harg7.unread xb)
                [⟨Rect.unit (s := S10000x128) (k0_off1 i) S400x128.size (k0_off1_inb i hc2), k0_pay2 x3 xa x2⟩]))) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfa
  obtain rfl := harg7.eq_unread hfb
  sl_exec (disch := first | exact hc1 | exact hc2 | exact hc3)
  sl_step
  rw [readAt_unread arg4 harg4 inb_S400x10000_S400x10000_0_0 x3, readAt_unread arg6 harg6 inb_S10000x128_S10000x128_0_0 xa, readAt_unread arg3 harg3 inb_S128x128_S128x128_0_0 x2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HA]
  · iexists _; isplitr; · ipureintro; exact harg6.read_unread _
    iexact HA
  iexists _; isplitr; · ipureintro; rfl
  iexact HB

end Cert.KernelIdeal.Body

end
-- ==== Proof.KI.RunC.lean ====
/-
  The body at a point of pass two: only the third branch is taken. It reads the adjacency block and the whole
  second scratch and stores their product over the whole output window.
-/
import proofs.«113537_g12867722019435_cont_9to1_m_966_12_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Pass two: the output window ends at the product of the adjacency block and the second scratch. -/
theorem runC (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .f32) (harg6 : arg6.IsWhole) (arg7 : Memref sig .tc .vmem S10000x128 .f32) (harg7 : arg7.IsWhole)
    (hc1 : ¬condP i) (hc2 : ¬k0_cond2 i = 1#1) (hc3 : k0_cond3 i = 1#1)
    (x0 : Vec F S10000x128 .f32) (x1 x2 : Vec F S128x128 .f32) (x3 : Vec F S400x10000 .f32) (x4 : Vec F S400x128 .f32) (xa xb : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare xa
            ∗ owns (c : Thread nD τ) arg7 fullShare xb
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay3 x3 xb)
            ∗ owns (c : Thread nD τ) arg6 fullShare xa
            ∗ owns (c : Thread nD τ) arg7 fullShare xb) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fb, %hfb, HB⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfa
  obtain rfl := harg7.eq_unread hfb
  sl_exec (disch := first | exact hc1 | exact hc2 | exact hc3)
  sl_step
  rw [readAt_unread arg4 harg4 inb_S400x10000_S400x10000_0_0 x3, readAt_unread arg7 harg7 inb_S10000x128_S10000x128_0_0 xb]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; exact read_writes_whole (F := F) _ _ _ _
  isplitl [HA]
  · iexists _; isplitr; · ipureintro; exact harg6.read_unread _
    iexact HA
  iexists _; isplitr; · ipureintro; exact harg7.read_unread _
  iexact HB

end Cert.KernelIdeal.Body

end
-- ==== Proof.KI.Body.lean ====
/-
  The body obligation at every grid point, the run of the whole program, and its frame.
  At each point the closed forms of the three branch conditions say which of the three runs applies; the
  invariant hands the run the two scratch buffers and takes them back one block further.
-/
import proofs.«113537_g12867722019435_cont_9to1_m_966_12_alg».proof.Proof.KI.Data
import proofs.«113537_g12867722019435_cont_9to1_m_966_12_alg».proof.Proof.KI.RunA
import proofs.«113537_g12867722019435_cont_9to1_m_966_12_alg».proof.Proof.KI.RunB
import proofs.«113537_g12867722019435_cont_9to1_m_966_12_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. Point 0: the first run, from scratch buffers at anything. Points 1..24: the second
    run, the first scratch at s1. Points 25..49: the third run, the second scratch at S2, the output window
    live. In pass one the output window is idle and not written back: it is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Phi m c (t.val + 1) from rfl, Phi_castSucc]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  by_cases h25 : t.val < 25
  · rw [Dat.leavesExact_idle (dats m 0 c) 4 t (idleAt4 t h25) (noFlush4 t h25)]
    have hc2 : k0_cond2 (grid0.coords t) = 1#1 := (hcond2 t).mpr h25
    have hc3 : ¬k0_cond3 (grid0.coords t) = 1#1 := fun h => by have := (hcond3 t).mp h; omega
    by_cases hz : t.val = 0
    · have ht : t = t0 := Fin.ext hz
      subst ht
      have hc1 : condP (grid0.coords t0) := (hcondP t0).mpr rfl
      unfold Phi
      iintro ⟨⟨%g, %f, %hgf, HA, HB, Hg⟩, Ho, ⟨%d0, H0⟩, ⟨%d1, H1⟩, ⟨%d2, H2⟩, ⟨%d3, H3⟩, ⟨%d4, H4⟩⟩
      iapply (runA c (grid0.coords t0) (ms0 t0) (hs0 t0) (ms1 t0) (hs1 t0) (ms2 t0) (hs2 t0) (ms3 t0) (hs3 t0) (ms4 t0) (hs4 t0) scA (Memref.isWhole_whole _) scB (Memref.isWhole_whole _) hc1 hc2 hc3
        (iblk m c 0 t0) (iblk m c 1 t0) (iblk m c 2 t0) (iblk m c 3 t0) ((dats m 0 c).before 4 t0 d4) g f Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, HA, HB⟩
      isplitl [HA HB Hg]
      · iexists _; iexists _; isplitr
        swap
        · isplitl [HA]; · iexact HA
          isplitl [HB]; · iexact HB
          iexact Hg
        ipureintro
        exact ⟨fun _ => rfl, Inv_step m c t0 h25 hc2 _ _ (by rw [Memref.IsWhole.read_unread]; exact hgf.2)⟩
      isplitl [Ho]; · iexact Ho
      isplitl [H0]; · iexact H0
      isplitl [H1]; · iexact H1
      isplitl [H2]; · iexact H2
      isplitl [H3]; · iexact H3
      iexists _; iexact H4
    · have hc1 : ¬condP (grid0.coords t) := fun h => hz ((hcondP t).mp h)
      unfold Phi
      iintro ⟨⟨%g, %f, %hgf, HA, HB, Hg⟩, Ho, ⟨%d0, H0⟩, ⟨%d1, H1⟩, ⟨%d2, H2⟩, ⟨%d3, H3⟩, ⟨%d4, H4⟩⟩
      have hg : g = S1 m c := hgf.1 hz
      subst hg
      iapply (runB c (grid0.coords t) (ms0 t) (hs0 t) (ms1 t) (hs1 t) (ms2 t) (hs2 t) (ms3 t) (hs3 t) (ms4 t) (hs4 t) scA (Memref.isWhole_whole _) scB (Memref.isWhole_whole _) hc1 hc2 hc3
        (iblk m c 0 t) (iblk m c 1 t) (iblk m c 2 t) (iblk m c 3 t) ((dats m 0 c).before 4 t d4) (S1 m c) f Set.univ _)
      isplitl [H0]; · iexact H0
      isplitl [H1]; · iexact H1
      isplitl [H2]; · iexact H2
      isplitl [H3]; · iexact H3
      isplitl [H4]; · iexact H4
      isplitl [HA]; · iexact HA
      isplitl [HB]; · iexact HB
      iintro ⟨H0, H1, H2, H3, H4, HA, HB⟩
      isplitl [HA HB Hg]
      · iexists _; iexists _; isplitr
        swap
        · isplitl [HA]; · iexact HA
          isplitl [HB]; · iexact HB
          iexact Hg
        ipureintro
        exact ⟨fun _ => rfl, Inv_step m c t h25 hc2 _ _ (by rw [Memref.IsWhole.read_unread]; exact hgf.2)⟩
      isplitl [Ho]; · iexact Ho
      isplitl [H0]; · iexact H0
      isplitl [H1]; · iexact H1
      isplitl [H2]; · iexact H2
      isplitl [H3]; · iexact H3
      iexists _; iexact H4
  · have h25' : 25 ≤ t.val := Nat.le_of_not_lt h25
    rw [show (dats m 0 c).leavesExact 4 t = owns (c : Thread nD τ) (ms4 t) fullShare ((dats m 0 c).after 4 t) from by
      unfold Dat.leavesExact; rw [liveAt4 t h25'], after0_4]
    have hz : t.val ≠ 0 := by omega
    have hc1 : ¬condP (grid0.coords t) := fun h => hz ((hcondP t).mp h)
    have hc2 : ¬k0_cond2 (grid0.coords t) = 1#1 := fun h => h25 ((hcond2 t).mp h)
    have hc3 : k0_cond3 (grid0.coords t) = 1#1 := (hcond3 t).mpr h25'
    unfold Phi
    iintro ⟨⟨%g, %f, %hgf, HA, HB, Hg⟩, Ho, ⟨%d0, H0⟩, ⟨%d1, H1⟩, ⟨%d2, H2⟩, ⟨%d3, H3⟩, ⟨%d4, H4⟩⟩
    have hg : g = S1 m c := hgf.1 hz
    have hf : f = S2 m c := Inv_full m c t.val h25' f hgf.2
    subst hg; subst hf
    iapply (runC c (grid0.coords t) (ms0 t) (hs0 t) (ms1 t) (hs1 t) (ms2 t) (hs2 t) (ms3 t) (hs3 t) (ms4 t) (hs4 t) scA (Memref.isWhole_whole _) scB (Memref.isWhole_whole _) hc1 hc2 hc3
      (iblk m c 0 t) (iblk m c 1 t) (iblk m c 2 t) (iblk m c 3 t) ((dats m 0 c).before 4 t d4) (S1 m c) (S2 m c) Set.univ _)
    isplitl [H0]; · iexact H0
    isplitl [H1]; · iexact H1
    isplitl [H2]; · iexact H2
    isplitl [H3]; · iexact H3
    isplitl [H4]; · iexact H4
    isplitl [HA]; · iexact HA
    isplitl [HB]; · iexact HB
    iintro ⟨H0, H1, H2, H3, H4, HA, HB⟩
    isplitl [HA HB Hg]
    · iexists _; iexists _; isplitr
      swap
      · isplitl [HA]; · iexact HA
        isplitl [HB]; · iexact HB
        iexact Hg
      ipureintro
      exact ⟨fun _ => rfl, fun y _ => rfl⟩
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (both scratch buffers at anything) is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%g, HA⟩, ⟨%f, HB⟩⟩, Hg⟩
  iexists g; iexists f
  isplitr
  · ipureintro; exact ⟨fun h => absurd rfl h, fun y hy => absurd hy (by omega)⟩
  isplitl [HA]; · iexact HA
  isplitl [HB]; · iexact HB
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%g, %f, %h, HA, HB, Hg⟩
  isplitl [HA HB]
  · isplitl [HA]
    · iexists _; iexact HA
    iexists _; iexact HB
  iexact Hg

set_option backward.isDefEq.respectTransparency.types false in
/-- Every weakly fair execution of the program terminates without a fault, every array of the pipeline ending at
    what the write-backs of the proof data leave in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.Spec.lean ====
/-
  The two-layer graph convolution as nested sums on the extended reals:
    s1(l, k)  = Σ_n x(l, n) · W1(n, k)
    h1(j, k)  = max(Σ_l adj(j, l) · s1(l, k), 0)
    s2(j, q)  = Σ_k h1(j, k) · W2(k, q)
    out(r, q) = Σ_j adj(r, j) · s2(j, q)
  Both programs compute exactly this grouping, so no law of the extended reals is needed to join them.
-/
import Idealize.ShloMosaic.Lib.ValueIdx
import Idealize.ShloMosaic.PureOps.Ideal.Laws

noncomputable section

namespace Cert.GcnSpec

open Idealize.ShloMosaic Idealize.ShloMosaic.ValueIdx

abbrev SX : Shape := ⟨2, ![10000, 128]⟩
abbrev SA : Shape := ⟨2, ![10000, 10000]⟩
abbrev SW : Shape := ⟨2, ![128, 128]⟩

variable (x : FVec Ideal SX .f32) (adj : FVec Ideal SA .f32) (w1 w2 : FVec Ideal SW .f32)

/-- The zero the rectifier compares with, as the extended real its word encodes (never evaluated). -/
def zero : Ideal .f32 := Ideal.ofBits .f32 0x00000000#32

/-- The first product, x·W1. -/
def s1 (l : Fin 10000) (k : Fin 128) : Ideal .f32 := ∑ n : Fin 128, x (ix2 l n) * w1 (ix2 n k)

/-- The rectified first layer, relu(adj·(x·W1)). -/
def h1 (j : Fin 10000) (k : Fin 128) : Ideal .f32 := max (∑ l : Fin 10000, adj (ix2 j l) * s1 x w1 l k) zero

/-- The second support, relu(adj·(x·W1))·W2. -/
def s2 (j : Fin 10000) (q : Fin 128) : Ideal .f32 := ∑ k : Fin 128, h1 x adj w1 j k * w2 (ix2 k q)

/-- The result, adj·(relu(adj·(x·W1))·W2). -/
def out : FVec Ideal SX .f32 := fun i => ∑ j : Fin 10000, adj (ix2 (i 0) j) * s2 x adj w1 w2 j (i 1)

theorem out_ix2 (r : Fin 10000) (q : Fin 128) :
    out x adj w1 w2 (ix2 r q) = ∑ j : Fin 10000, adj (ix2 r j) * s2 x adj w1 w2 j q := rfl

end Cert.GcnSpec

end
-- ==== Proof.KPay.lean ====
/-
  The kernel's three stored values at an entry, on the extended reals: each matrix-unit product into the zero
  accumulator is the sum over the contracted coordinate of the operands' products, the rectifier is the maximum
  with zero, and a shape cast to the same shape is the identity.
-/
import proofs.«113537_g12867722019435_cont_9to1_m_966_12_alg».proof.Proof.Gen.KernelIdeal.Skeleton
import proofs.«113537_g12867722019435_cont_9to1_m_966_12_alg».proof.Proof.LibPlainDot
import proofs.«113537_g12867722019435_cont_9to1_m_966_12_alg».proof.Proof.Spec
import Idealize.ShloMosaic.Lib.Pipeline.Value

noncomputable section

namespace Cert.KernelIdeal.KPay

open Cert.KernelIdeal Cert.KernelIdeal.Gen Cert.KernelIdeal.Facts₀
open Idealize.ShloMosaic Idealize.ShloMosaic.ValueIdx

local notation "D1" => dot_S10000x128_S128x128_S10000x128_1_0_0_1_n_n
local notation "D2" => dot_S400x10000_S10000x128_S400x128_1_0_0_1_n_n
local notation "D3" => dot_S400x128_S128x128_S400x128_1_0_0_1_n_n

/-! ## The three dimension records contract the left operand's second axis with the right operand's first -/

theorem d1_l0 (i : S10000x128.Idx) (q : (D1).contr.Idx) : ((D1).lhsIdx i q 0).val = (i 0).val := by
  unfold DotDims.lhsIdx
  rw [dif_neg (show ¬(0 : Fin S10000x128.rank) ∈ (D1).lhsBatch by decide), dif_pos (show (0 : Fin S10000x128.rank) ∈ (D1).lhsNonContracting by decide)]
  rfl
theorem d1_l1 (i : S10000x128.Idx) (q : (D1).contr.Idx) : ((D1).lhsIdx i q 1).val = (q ⟨0, by decide⟩).val :=
  (D1).lhsIdx_val_of_single rfl i q
theorem d1_r0 (i : S10000x128.Idx) (q : (D1).contr.Idx) : ((D1).rhsIdx i q 0).val = (q ⟨0, by decide⟩).val :=
  (D1).rhsIdx_val_of_single rfl i q
theorem d1_r1 (i : S10000x128.Idx) (q : (D1).contr.Idx) : ((D1).rhsIdx i q 1).val = (i 1).val := by
  unfold DotDims.rhsIdx
  rw [dif_neg (show ¬(1 : Fin S128x128.rank) ∈ (D1).rhsBatch by decide), dif_pos (show (1 : Fin S128x128.rank) ∈ (D1).rhsNonContracting by decide)]
  rfl

theorem d2_l0 (i : S400x128.Idx) (q : (D2).contr.Idx) : ((D2).lhsIdx i q 0).val = (i 0).val := by
  unfold DotDims.lhsIdx
  rw [dif_neg (show ¬(0 : Fin S400x10000.rank) ∈ (D2).lhsBatch by decide), dif_pos (show (0 : Fin S400x10000.rank) ∈ (D2).lhsNonContracting by decide)]
  rfl
theorem d2_l1 (i : S400x128.Idx) (q : (D2).contr.Idx) : ((D2).lhsIdx i q 1).val = (q ⟨0, by decide⟩).val :=
  (D2).lhsIdx_val_of_single rfl i q
theorem d2_r0 (i : S400x128.Idx) (q : (D2).contr.Idx) : ((D2).rhsIdx i q 0).val = (q ⟨0, by decide⟩).val :=
  (D2).rhsIdx_val_of_single rfl i q
theorem d2_r1 (i : S400x128.Idx) (q : (D2).contr.Idx) : ((D2).rhsIdx i q 1).val = (i 1).val := by
  unfold DotDims.rhsIdx
  rw [dif_neg (show ¬(1 : Fin S10000x128.rank) ∈ (D2).rhsBatch by decide), dif_pos (show (1 : Fin S10000x128.rank) ∈ (D2).rhsNonContracting by decide)]
  rfl

theorem d3_l0 (i : S400x128.Idx) (q : (D3).contr.Idx) : ((D3).lhsIdx i q 0).val = (i 0).val := by
  unfold DotDims.lhsIdx
  rw [dif_neg (show ¬(0 : Fin S400x128.rank) ∈ (D3).lhsBatch by decide), dif_pos (show (0 : Fin S400x128.rank) ∈ (D3).lhsNonContracting by decide)]
  rfl
theorem d3_l1 (i : S400x128.Idx) (q : (D3).contr.Idx) : ((D3).lhsIdx i q 1).val = (q ⟨0, by decide⟩).val :=
  (D3).lhsIdx_val_of_single rfl i q
theorem d3_r0 (i : S400x128.Idx) (q : (D3).contr.Idx) : ((D3).rhsIdx i q 0).val = (q ⟨0, by decide⟩).val :=
  (D3).rhsIdx_val_of_single rfl i q
theorem d3_r1 (i : S400x128.Idx) (q : (D3).contr.Idx) : ((D3).rhsIdx i q 1).val = (i 1).val := by
  unfold DotDims.rhsIdx
  rw [dif_neg (show ¬(1 : Fin S128x128.rank) ∈ (D3).rhsBatch by decide), dif_pos (show (1 : Fin S128x128.rank) ∈ (D3).rhsNonContracting by decide)]
  rfl

/-! ## The stored values at an entry -/

/-- The first point's stored value: the product of its two blocks. -/
theorem pay1_apply (v9 : Vec Ideal S10000x128 .f32) (v10 : Vec Ideal S128x128 .f32) (l : Fin 10000) (k : Fin 128) :
    k0_pay1 (F := Ideal) v9 v10 (ix2 l k) = ∑ n : Fin 128, v9 (ix2 l n) * v10 (ix2 n k) := by
  unfold k0_pay1
  rw [shapeCast_self]
  exact PlainDot.matmul_zero_apply (D1) none rfl rfl d1_l0 d1_l1 d1_r0 d1_r1 v9 v10 l k

/-- Pass two's stored value: the product of the adjacency block and the second scratch. -/
theorem pay3_apply (v9 : Vec Ideal S400x10000 .f32) (v10 : Vec Ideal S10000x128 .f32) (p : Fin 400) (q : Fin 128) :
    k0_pay3 (F := Ideal) v9 v10 (ix2 p q) = ∑ j : Fin 10000, v9 (ix2 p j) * v10 (ix2 j q) := by
  unfold k0_pay3
  exact PlainDot.matmul_zero_apply (D2) none rfl rfl d2_l0 d2_l1 d2_r0 d2_r1 v9 v10 p q

/-- Pass one's stored value: the rectified product of the adjacency block and s1, times W2. -/
theorem pay2_apply (v9 : Vec Ideal S400x10000 .f32) (v10 : Vec Ideal S10000x128 .f32) (v14 : Vec Ideal S128x128 .f32)
    (p : Fin 400) (q : Fin 128) :
    k0_pay2 (F := Ideal) v9 v10 v14 (ix2 p q)
      = ∑ k : Fin 128, max (∑ l : Fin 10000, v9 (ix2 p l) * v10 (ix2 l k)) Cert.GcnSpec.zero * v14 (ix2 k q) := by
  unfold k0_pay2
  rw [shapeCast_self]
  refine (PlainDot.matmul_zero_apply (D3) none rfl rfl d3_l0 d3_l1 d3_r0 d3_r1 _ v14 p q).trans ?_
  refine Finset.sum_congr rfl fun k _ => ?_
  refine congrArg (· * v14 (ix2 k q)) ?_
  refine (maximumf_apply _ _ (ix2 p k)).trans ?_
  rw [PlainDot.matmul_zero_apply (D2) none rfl rfl d2_l0 d2_l1 d2_r0 d2_r1 v9 v10 p k]
  rfl

end Cert.KernelIdeal.KPay

end
-- ==== Proof.KVal.lean ====
/-
  The kernel's result array on the extended reals.
  A block of an input window read at an entry is the argument array at block index × block size + the entry's
  coordinate. With that, the first scratch is x·W1, block k of pass one is rows 400·k .. 400·k+399 of
  relu(adj·(x·W1))·W2, so the second scratch after pass one is that whole array, and point 25 + b of pass two
  writes rows 400·b .. 400·b+399 of adj·(second scratch) back. The 25 written blocks tile the result.
-/
import proofs.«113537_g12867722019435_cont_9to1_m_966_12_alg».proof.Proof.KI.Body
import proofs.«113537_g12867722019435_cont_9to1_m_966_12_alg».proof.Proof.KPay
import proofs.«113537_g12867722019435_cont_9to1_m_966_12_alg».proof.Proof.Spec
import Idealize.ShloMosaic.Lib.Pipeline.Value

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The printed index maps, decided over the grid -/

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val % 25 ∧ win0_3.index t (1 : Fin 2) = 0 :=
  (by decide +kernel : ∀ t : Fin grid0.N, win0_3.index t (0 : Fin 2) = t.val % 25 ∧ win0_3.index t (1 : Fin 2) = 0)
theorem idx4 : ∀ t : Fin cfg0.N, 25 ≤ t.val → win0_4.index t (0 : Fin 2) = t.val - 25 ∧ win0_4.index t (1 : Fin 2) = 0 :=
  (by decide +kernel : ∀ t : Fin grid0.N, 25 ≤ t.val → win0_4.index t (0 : Fin 2) = t.val - 25 ∧ win0_4.index t (1 : Fin 2) = 0)

/-! ## The input blocks read at an entry -/

/-- The x window's block is the whole array. -/
theorem blk0 (c : Dev nD) (t : Fin cfg0.N) (y : S10000x128.Idx) :
    iblk m c 0 t y = m ((c : Thread nD τ).loc main_arg0) y := by
  show V m c main_arg0 (((cfg0.win 0).blk t).view.emb y) = V m c main_arg0 y
  have h : ((cfg0.win 0).blk t).view.emb y = y := by
    funext a; apply Fin.ext
    obtain ⟨e0, e1⟩ := idx0 t
    match a with
    | ⟨0, _⟩ => show win0_0.index t (0 : Fin 2) * 10000 + 1 * (y 0).val = (y 0).val; omega
    | ⟨1, _⟩ => show win0_0.index t (1 : Fin 2) * 128 + 1 * (y 1).val = (y 1).val; omega
  rw [h]

/-- The W1 window's block is the whole array. -/
theorem blk1 (c : Dev nD) (t : Fin cfg0.N) (y : S128x128.Idx) :
    iblk m c 1 t y = m ((c : Thread nD τ).loc main_arg2) y := by
  show V m c main_arg2 (((cfg0.win 1).blk t).view.emb y) = V m c main_arg2 y
  have h : ((cfg0.win 1).blk t).view.emb y = y := by
    funext a; apply Fin.ext
    obtain ⟨e0, e1⟩ := idx1 t
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [h]

/-- The W2 window's block is the whole array. -/
theorem blk2 (c : Dev nD) (t : Fin cfg0.N) (y : S128x128.Idx) :
    iblk m c 2 t y = m ((c : Thread nD τ).loc main_arg3) y := by
  show V m c main_arg3 (((cfg0.win 2).blk t).view.emb y) = V m c main_arg3 y
  have h : ((cfg0.win 2).blk t).view.emb y = y := by
    funext a; apply Fin.ext
    obtain ⟨e0, e1⟩ := idx2 t
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]

/-- The adjacency window's block at point t is rows 400·(t mod 25) .. +399 of the array. -/
theorem blk3 (c : Dev nD) (t : Fin cfg0.N) (p : Fin 400) (j : Fin 10000) (r : Fin 10000)
    (hr : r.val = 400 * (t.val % 25) + p.val) :
    iblk m c 3 t (ix2 p j) = m ((c : Thread nD τ).loc main_arg1) (ix2 r j) := by
  show V m c main_arg1 (((cfg0.win 3).blk t).view.emb (ix2 p j)) = V m c main_arg1 (ix2 r j)
  have h : ((cfg0.win 3).blk t).view.emb (ix2 p j) = ix2 r j := by
    funext a; apply Fin.ext
    obtain ⟨e0, e1⟩ := idx3 t
    match a with
    | ⟨0, _⟩ => show win0_3.index t (0 : Fin 2) * 400 + 1 * p.val = r.val; omega
    | ⟨1, _⟩ => show win0_3.index t (1 : Fin 2) * 10000 + 1 * j.val = j.val; omega
  rw [h]

/-- The output window's block at point t of pass two is rows 400·(t − 25) .. +399 of the result. -/
theorem emb4 (t : Fin cfg0.N) (h25 : 25 ≤ t.val) (p : Fin 400) (q : Fin 128) (r : Fin 10000)
    (hr : r.val = 400 * (t.val - 25) + p.val) :
    ((cfg0.win 4).blk t).view.emb (ix2 p q) = ix2 r q := by
  funext a; apply Fin.ext
  obtain ⟨e0, e1⟩ := idx4 t h25
  match a with
  | ⟨0, _⟩ => show win0_4.index t (0 : Fin 2) * 400 + 1 * p.val = r.val; omega
  | ⟨1, _⟩ => show win0_4.index t (1 : Fin 2) * 128 + 1 * q.val = q.val; omega

/-! ## The scratch buffers on the extended reals -/

/-- The result the kernel's array ends at: the specification of the four argument arrays. -/
def G (c : Dev nD) : S10000x128.Idx → Ideal .f32 :=
  Cert.GcnSpec.out (m ((c : Thread nD τ).loc main_arg0)) (m ((c : Thread nD τ).loc main_arg1))
    (m ((c : Thread nD τ).loc main_arg2)) (m ((c : Thread nD τ).loc main_arg3))

/-- The first scratch is x·W1. -/
theorem S1_apply (c : Dev nD) (l : Fin 10000) (k : Fin 128) :
    S1 m c (ix2 l k) = Cert.GcnSpec.s1 (m ((c : Thread nD τ).loc main_arg0)) (m ((c : Thread nD τ).loc main_arg2)) l k := by
  unfold S1 Cert.GcnSpec.s1
  rw [KPay.pay1_apply]
  refine Finset.sum_congr rfl fun n _ => ?_
  rw [blk0, blk1]

/-- The second scratch after pass one is relu(adj·(x·W1))·W2. -/
theorem S2_apply (c : Dev nD) (j : Fin 10000) (q : Fin 128) :
    S2 m c (ix2 j q) = Cert.GcnSpec.s2 (m ((c : Thread nD τ).loc main_arg0)) (m ((c : Thread nD τ).loc main_arg1))
      (m ((c : Thread nD τ).loc main_arg2)) (m ((c : Thread nD τ).loc main_arg3)) j q := by
  have hj : j.val < 10000 := j.isLt
  have hk : j.val / 400 < cfg0.N := by show j.val / 400 < 50; omega
  have hp : j.val % 400 < 400 := Nat.mod_lt _ (by decide)
  rw [S2_of_row m c ⟨j.val / 400, hk⟩ (ix2 j q) (ix2 ⟨j.val % 400, hp⟩ q)
    (by show j.val = 400 * (j.val / 400) + j.val % 400; omega) rfl]
  unfold B2 Cert.GcnSpec.s2
  rw [KPay.pay2_apply]
  refine Finset.sum_congr rfl fun k _ => ?_
  rw [blk2]
  refine congrArg (· * _) ?_
  unfold Cert.GcnSpec.h1
  refine congrArg (max · Cert.GcnSpec.zero) ?_
  refine Finset.sum_congr rfl fun l _ => ?_
  rw [blk3 m c ⟨j.val / 400, hk⟩ ⟨j.val % 400, hp⟩ l j (by show j.val = 400 * ((j.val / 400) % 25) + j.val % 400; omega), S1_apply]

/-! ## From blocks to the array -/

/-- What a point of pass two writes back is its block of the specification's result. -/
theorem flushed4_eq (c : Dev nD) (t : Fin cfg0.N) (hf : (cfg0.win 4).flush t = true) :
    (dats m 0 c).flushed 4 t = ((cfg0.win 4).blk t).view.read (Elt Ideal) (G m c) := by
  have h25 : 25 ≤ t.val := by
    by_contra h
    have hn := noFlush4 t (by omega)
    rw [hn] at hf
    exact Bool.false_ne_true hf
  have hN : t.val < 50 := lt_of_lt_of_eq t.isLt (show cfg0.N = 50 from N_0)
  show (cfg0.win 4).cut (grid0.coords t) ((dats m 0 c).after 4 t) = _
  rw [after0_4]
  refine funext fun (y : S400x128.Idx) => ?_
  obtain ⟨p, q, rfl⟩ : ∃ (p : Fin 400) (q : Fin 128), y = ix2 p q := ⟨y 0, y 1, eq_ix2 y⟩
  have hp : p.val < 400 := p.isLt
  have hr : 400 * (t.val - 25) + p.val < 10000 := by omega
  show k0_pay3 (iblk m c 3 t) (S2 m c) (ix2 p q) = G m c (((cfg0.win 4).blk t).view.emb (ix2 p q))
  rw [emb4 t h25 p q ⟨400 * (t.val - 25) + p.val, hr⟩ rfl, KPay.pay3_apply]
  unfold G
  rw [Cert.GcnSpec.out_ix2]
  refine Finset.sum_congr rfl fun j _ => ?_
  rw [blk3 m c t p j ⟨400 * (t.val - 25) + p.val, hr⟩ (by show 400 * (t.val - 25) + p.val = 400 * (t.val % 25) + p.val; omega), S2_apply]

/-- An index of the result is in point t's block iff each coordinate is in the block's range on its axis. -/
theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row r of the result is covered by the point 25 + r / 400, which writes its block back. -/
theorem cover4 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have ht : 25 + (i 0).val / 400 < cfg0.N := by show 25 + (i 0).val / 400 < 50; omega
  have h25 : 25 ≤ (⟨25 + (i 0).val / 400, ht⟩ : Fin cfg0.N).val := Nat.le_add_right _ _
  obtain ⟨e0, e1⟩ := idx4 ⟨25 + (i 0).val / 400, ht⟩ h25
  refine ⟨⟨25 + (i 0).val / 400, ht⟩, flush4 _ h25, ?_⟩
  rw [mem_blk4]
  intro a
  match a with
  | ⟨0, _⟩ =>
    show win0_4.index ⟨25 + (i 0).val / 400, ht⟩ (0 : Fin 2) * 400 ≤ (i 0).val ∧ (i 0).val < win0_4.index ⟨25 + (i 0).val / 400, ht⟩ (0 : Fin 2) * 400 + 400
    rw [e0]; show (25 + (i 0).val / 400 - 25) * 400 ≤ (i 0).val ∧ (i 0).val < (25 + (i 0).val / 400 - 25) * 400 + 400; omega
  | ⟨1, _⟩ =>
    show win0_4.index ⟨25 + (i 0).val / 400, ht⟩ (1 : Fin 2) * 128 ≤ (i 1).val ∧ (i 1).val < win0_4.index ⟨25 + (i 0).val / 400, ht⟩ (1 : Fin 2) * 128 + 128
    rw [e1]; omega

/-- The result array after the run is the specification's result. -/
theorem final (c : Dev nD) : (dats m 0 c).arrAt 4 cfg0.N = G m c :=
  (dats m 0 c).arrAt_eq_of_cover 4 (G m c) (fun t hf => flushed4_eq m c t hf) cover4

/-- The run, read: the result array at the specification of the arguments, the arguments unchanged. -/
theorem run : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.KVal

end
-- ==== Proof.RefRead.lean ====
/-
  The reference computes adj · (relu(adj · (x · W1)) · W2) by four host matrix products and one maximum with
  the zero constant; read at an entry it is the nested sums of the specification, in the same grouping.
-/
import proofs.«113537_g12867722019435_cont_9to1_m_966_12_alg».proof.Proof.Gen.ReferenceIdeal.Read
import proofs.«113537_g12867722019435_cont_9to1_m_966_12_alg».proof.Proof.LibPlainDot
import proofs.«113537_g12867722019435_cont_9to1_m_966_12_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The rectifier's second operand, the broadcast zero constant, at any index. -/
theorem relu_zero (i : S10000x128.Idx) : val_main_call0_v0 (F := Ideal) i = Cert.GcnSpec.zero := by
  rw [val_main_call0_v0_apply, val_main_call0_cst_apply]
  rfl

/-- The reference's first product at an entry. -/
theorem v0_apply (x0 : (⟨S10000x128, .f32⟩ : BufTy).Contents (Elt Ideal)) (x2 : (⟨S128x128, .f32⟩ : BufTy).Contents (Elt Ideal))
    (l : Fin 10000) (k : Fin 128) : val_main_v0 (F := Ideal) x0 x2 (ix2 l k) = Cert.GcnSpec.s1 x0 x2 l k := by
  unfold val_main_v0 Cert.GcnSpec.s1
  exact PlainDot.dotGeneral_apply _ none rfl rfl lhs_main_v0_0 lhs_main_v0_1 rhs_main_v0_0 rhs_main_v0_1 x0 x2 l k

/-- The reference's rectified first layer at an entry. -/
theorem v2_apply (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (j : Fin 10000) (k : Fin 128) :
    val_main_v2 (F := Ideal) x0 x1 x2 (ix2 j k) = Cert.GcnSpec.h1 x0 x1 x2 j k := by
  unfold Cert.GcnSpec.h1
  refine (val_main_v2_apply x0 x1 x2 (ix2 j k)).trans ?_
  rw [relu_zero]
  refine congrArg (max · Cert.GcnSpec.zero) ?_
  unfold val_main_v1
  refine (PlainDot.dotGeneral_apply _ none rfl rfl lhs_main_v1_0 lhs_main_v1_1 rhs_main_v1_0 rhs_main_v1_1 x1 _ j k).trans ?_
  refine Finset.sum_congr rfl fun l _ => ?_
  rw [v0_apply]

/-- The reference's result is the specification's. -/
theorem ref_eq (x0 : (⟨S10000x128, .f32⟩ : BufTy).Contents (Elt Ideal)) (x1 : (⟨S10000x10000, .f32⟩ : BufTy).Contents (Elt Ideal))
    (x2 x3 : (⟨S128x128, .f32⟩ : BufTy).Contents (Elt Ideal)) :
    val_main_v4 (F := Ideal) x0 x1 x2 x3 = Cert.GcnSpec.out x0 x1 x2 x3 := by
  funext i
  obtain ⟨r, q, rfl⟩ : ∃ (r : Fin 10000) (q : Fin 128), i = ix2 r q := ⟨i 0, i 1, eq_ix2 i⟩
  rw [Cert.GcnSpec.out_ix2]
  unfold val_main_v4
  refine (PlainDot.dotGeneral_apply _ none rfl rfl lhs_main_v4_0 lhs_main_v4_1 rhs_main_v4_0 rhs_main_v4_1 x1 _ r q).trans ?_
  refine Finset.sum_congr rfl fun j _ => ?_
  refine congrArg (x1 (ix2 r j) * ·) ?_
  unfold val_main_v3 Cert.GcnSpec.s2
  refine (PlainDot.dotGeneral_apply _ none rfl rfl lhs_main_v3_0 lhs_main_v3_1 rhs_main_v3_0 rhs_main_v3_1 _ x3 j q).trans ?_
  refine Finset.sum_congr rfl fun k _ => ?_
  rw [v2_apply]

end Cert.ReferenceIdeal.RefValue

end
-- ==== Proof.lean ====
/-
  Two-layer graph convolution, out = adj · (relu(adj · (x · W1)) · W2), fused into one kernel of 50 grid points
  over 25 row blocks of adj, against four host matrix products.

  Frames. The kernel keeps x·W1 in one scratch buffer (stored at point 0) and builds relu(adj·(x·W1))·W2 in a
  second one, 400 rows per point of pass one, at a row offset computed from the point; pass two multiplies each
  adjacency block with the finished second scratch into the output window. The region invariant says, before
  point n, that the first scratch holds x·W1 (n ≥ 1) and that the first 400·n rows of the second scratch are
  final; the output window is idle and never written back during pass one. The same text proves the frame of the
  word-level program and of the idealized one.

  Value. On the extended reals every matrix product is the plain sum over the contracted coordinate, so the
  kernel's blocks are exactly the rows of the reference's nested sums, in the same grouping: no algebraic law
  and no finiteness is needed. The 25 blocks pass two writes back tile the result.
-/
import proofs.«113537_g12867722019435_cont_9to1_m_966_12_alg».proof.Defs
import proofs.«113537_g12867722019435_cont_9to1_m_966_12_alg».proof.Proof.Gen.Kernel
import proofs.«113537_g12867722019435_cont_9to1_m_966_12_alg».proof.Proof.Gen.KernelIdeal
import proofs.«113537_g12867722019435_cont_9to1_m_966_12_alg».proof.Proof.Gen.ReferenceIdeal
import proofs.«113537_g12867722019435_cont_9to1_m_966_12_alg».proof.Proof.Gen.Pre_finite_inputs
import proofs.«113537_g12867722019435_cont_9to1_m_966_12_alg».proof.Proof.Gen.ReferenceIdeal.Run
import proofs.«113537_g12867722019435_cont_9to1_m_966_12_alg».proof.Proof.K.Body
import proofs.«113537_g12867722019435_cont_9to1_m_966_12_alg».proof.Proof.KI.Body
import proofs.«113537_g12867722019435_cont_9to1_m_966_12_alg».proof.Proof.KVal
import proofs.«113537_g12867722019435_cont_9to1_m_966_12_alg».proof.Proof.RefRead
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the nested sums of the specification of the same four arrays. -/
theorem algebraic : Cert.algebraic_KernelIdeal_ReferenceIdeal := by
  intro m ρ m' ρ' _ hagree
  refine ⟨fun c => Cert.KernelIdeal.KVal.G m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
